-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x56x56 .f32) (main_arg1 : FVec F S16x256 .f32) (main_arg2 : FVec F S16 .f32) (main_arg3 : FVec F S256x16 .f32) (main_arg4 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S64x256x3136 : Shape := ⟨3, ![64, 256, 3136]⟩
abbrev S64x256x1 : Shape := ⟨3, ![64, 256, 1]⟩
abbrev S8x128x3136 : Shape := ⟨3, ![8, 128, 3136]⟩
abbrev S8x128x1 : Shape := ⟨3, ![8, 128, 1]⟩
abbrev S8x128 : Shape := ⟨2, ![8, 128]⟩
abbrev S64x256 : Shape := ⟨2, ![64, 256]⟩
abbrev S64x16 : Shape := ⟨2, ![64, 16]⟩
abbrev S1x16 : Shape := ⟨2, ![1, 16]⟩
abbrev S_ : Shape := ⟨0, ![]⟩
abbrev S1x256 : Shape := ⟨2, ![1, 256]⟩

abbrev nBuf : Space → Nat
  | .hbm => 30
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S64x256x3136, .f32⟩
  | .hbm, ⟨6, _⟩ => ⟨S64x256x1, .f32⟩
  | .hbm, ⟨7, _⟩ => ⟨S64x256, .f32⟩
  | .hbm, ⟨8, _⟩ => ⟨S64x16, .f32⟩
  | .hbm, ⟨9, _⟩ => ⟨S1x16, .f32⟩
  | .hbm, ⟨10, _⟩ => ⟨S64x16, .f32⟩
  | .hbm, ⟨11, _⟩ => ⟨S64x16, .f32⟩
  | .hbm, ⟨12, _⟩ => ⟨S_, .f32⟩
  | .hbm, ⟨13, _⟩ => ⟨S64x16, .f32⟩
  | .hbm, ⟨14, _⟩ => ⟨S64x16, .f32⟩
  | .hbm, ⟨15, _⟩ => ⟨S64x256, .f32⟩
  | .hbm, ⟨16, _⟩ => ⟨S1x256, .f32⟩
  | .hbm, ⟨17, _⟩ => ⟨S64x256, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S_, .f32⟩
  | .hbm, ⟨22, _⟩ => ⟨S64x256, .f32⟩
  | .hbm, ⟨23, _⟩ => ⟨S64x256, .f32⟩
  | .hbm, ⟨24, _⟩ => ⟨S_, .f32⟩
  | .hbm, ⟨25, _⟩ => ⟨S64x256, .f32⟩
  | .hbm, ⟨26, _⟩ => ⟨S64x256, .f32⟩
  | .hbm, ⟨27, _⟩ => ⟨S64x256x1, .f32⟩
  | .hbm, ⟨28, _⟩ => ⟨S64x256x3136, .f32⟩
  | .hbm, ⟨29, _⟩ => ⟨S64x256x56x56, .f32⟩
  | .local _ .vmem, ⟨0, _⟩ => ⟨S8x128x3136, .f32⟩
  | .local _ .vmem, ⟨1, _⟩ => ⟨S8x128x3136, .f32⟩
  | .local _ .vmem, ⟨2, _⟩ => ⟨S8x128x1, .f32⟩
  | .local _ .vmem, ⟨3, _⟩ => ⟨S8x128x1, .f32⟩
  | .local _ .vmem, ⟨4, _⟩ => ⟨S8x128x3136, .f32⟩
  | .local _ .vmem, ⟨5, _⟩ => ⟨S8x128x3136, .f32⟩
  | .local _ .vmem, ⟨6, _⟩ => ⟨S8x128x1, .f32⟩
  | .local _ .vmem, ⟨7, _⟩ => ⟨S8x128x1, .f32⟩
  | .local _ .vmem, ⟨8, _⟩ => ⟨S8x128x3136, .f32⟩
  | .local _ .vmem, ⟨9, _⟩ => ⟨S8x128x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128x3136 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64x256x56x56_S64x256x3136 : S64x256x56x56.ShapeCasts S64x256x3136
  inb_S8x128x3136_S8x128x3136_0_0_0 : ∀ a, (![0, 0, 0] : Fin 3 → Nat) a + S8x128x3136.size a ≤ S8x128x3136.size a
  h_S8x128x3136 : 0 < S8x128x3136.numel
  shapeCasts_S8x128x3136_S8x128x3136 : S8x128x3136.ShapeCasts S8x128x3136
  reduces_S8x128x3136_S8x128 : S8x128x3136.Reduces [2] S8x128
  shapeCasts_S8x128_S8x128x1 : S8x128.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S64x256x1_S64x256 : S64x256x1.ShapeCasts S64x256
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  shapeCasts_S8x128x1_S8x128x1 : S8x128x1.ShapeCasts S8x128x1
  broadcasts_S8x128x1_S8x128x3136 : S8x128x1.Broadcasts S8x128x3136
  shapeCasts_S64x256x3136_S64x256x56x56 : S64x256x3136.ShapeCasts S64x256x56x56
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3136.size a ≤ S64x256x3136.size a
  hwx0_0 : ∀ i : grid0.Coords, EltTy.bits .f32 = 32 ∨ (Rect.block (s := S64x256x3136) S8x128x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1.size a ≤ S64x256x1.size a
  hwx0_1 : ∀ i : grid0.Coords, EltTy.bits .f32 = 32 ∨ (Rect.block (s := S64x256x1) S8x128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3136.size a ≤ S64x256x3136.size a
  hwx1_0 : ∀ i : grid1.Coords, EltTy.bits .f32 = 32 ∨ (Rect.block (s := S64x256x3136) S8x128x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1.size a ≤ S64x256x1.size a
  hwx1_1 : ∀ i : grid1.Coords, EltTy.bits .f32 = 32 ∨ (Rect.block (s := S64x256x1) S8x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x3136.size a ≤ S64x256x3136.size a
  hwx1_2 : ∀ i : grid1.Coords, EltTy.bits .f32 = 32 ∨ (Rect.block (s := S64x256x3136) S8x128x3136.size (cc1_transform_2 i) (hinb1_2 i)).WholeWords (EltTy.packing .f32)

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

abbrev win0_0 : Pipeline.Window sig grid0 :=
  Pipeline.Window.ofSpec (Memref.whole main_v0) S8x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8x128x3136.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1x1 : Shape := ⟨4, ![64, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x16, .f32⟩
  | .hbm, ⟨11, _⟩ => ⟨S1x16, .f32⟩
  | .hbm, ⟨12, _⟩ => ⟨S64x16, .f32⟩
  | .hbm, ⟨13, _⟩ => ⟨S64x16, .f32⟩
  | .hbm, ⟨14, _⟩ => ⟨S_, .f32⟩
  | .hbm, ⟨15, _⟩ => ⟨S64x16, .f32⟩
  | .hbm, ⟨16, _⟩ => ⟨S64x16, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x256x1x1, .f32⟩
  | .hbm, ⟨30, _⟩ => ⟨S64x256x56x56, .f32⟩
  | .hbm, ⟨31, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

class Facts : Prop extends Facts₀ where

variable [Facts]
-- ==== Proof.KernelRun.lean ====
/-
  The idealized kernel program's run with its result named.

  The program is seven segments: a reshape on the host, the pooling launch, three stretches of host operations (the
  two small matrix products, the rectifier, the logistic weight), the scaling launch, and a last reshape.  The generated
  frame follows the contents of every unscoped buffer of a core from one segment boundary to the next — `W0` at launch
  up to `W7` at the return — and concludes that the five argument arrays end as launched.  The same run read at one more
  buffer says that the result array ends at `W7`'s contents there, which is all that is added here.
-/
import proofs.«144357_j18081812316801_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents at its buffer, and the argument arrays are as launched. -/
theorem run_main : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v20 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Run

end
-- ==== Proof.LibTrailingFlatten.lean ====
/-
  Merging the two trailing axes of a rank-four array into one, and what it does to sums — general facts, independent of
  any program.

  A `[a, b, c, d]` array and the `[a, b, c·d]` array with the same row-major order hold the same entries: position
  `(i, j, p, q)` of the first is position `(i, j, p·d + q)` of the second.  So a sum over the merged axis is the double
  sum over the two axes it merges, and the host's sum over axes 2 and 3 of the rank-four array is that double sum too.
  Beside these: the casts that add or drop a trailing unit axis, a `[a, b]` array given a trailing unit axis by
  `broadcast_in_dim`, and a sum over the last axis of a rank-three vector, each read at an index built from coordinates.
-/
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.LibTrailingFlatten

open Idealize.ShloMosaic Idealize.ShloMosaic.ValueIdx

variable {α : Type}

/-! ## The casts, read at an index -/

/-- A `[a, b, c, d]` array cast to `[a, b, e]` with `e = c·d` reads, at `(i, j, k)` with `k = p·d + q`, the operand at
    `(i, j, p, q)`: both sit at row-major position `((i·b + j)·c + p)·d + q`. -/
theorem shapeCast_abcd_abe_apply {a b c d e : ℕ} (he : e = c * d) (x : (⟨4, ![a, b, c, d]⟩ : Shape).Idx → α)
    (h : (⟨4, ![a, b, c, d]⟩ : Shape).ShapeCasts ⟨3, ![a, b, e]⟩) (i : Fin a) (j : Fin b) (p : Fin c) (q : Fin d)
    (k : Fin e) (hk : k.val = p.val * d + q.val) :
    shapeCast ⟨3, ![a, b, e]⟩ x h (ix3 i j k) = x (ix4 i j p q) :=
  shapeCast_apply x h _ _ (by
    rw [Shape.rowMajor_val_four, Shape.rowMajor_val_three]
    show ((i.val * b + j.val) * c + p.val) * d + q.val = (i.val * b + j.val) * e + k.val
    rw [hk, he]; ring)

/-- The cast back: a `[a, b, e]` array cast to `[a, b, c, d]` with `e = c·d` reads, at `(i, j, p, q)`, the operand at
    `(i, j, k)` with `k = p·d + q`. -/
theorem shapeCast_abe_abcd_apply {a b c d e : ℕ} (he : e = c * d) (x : (⟨3, ![a, b, e]⟩ : Shape).Idx → α)
    (h : (⟨3, ![a, b, e]⟩ : Shape).ShapeCasts ⟨4, ![a, b, c, d]⟩) (i : Fin a) (j : Fin b) (p : Fin c) (q : Fin d)
    (k : Fin e) (hk : k.val = p.val * d + q.val) :
    shapeCast ⟨4, ![a, b, c, d]⟩ x h (ix4 i j p q) = x (ix3 i j k) :=
  shapeCast_apply x h _ _ (by
    rw [Shape.rowMajor_val_four, Shape.rowMajor_val_three]
    show (i.val * b + j.val) * e + k.val = ((i.val * b + j.val) * c + p.val) * d + q.val
    rw [hk, he]; ring)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` array repeated along its unit axis to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b]` array given a trailing unit axis by `broadcast_in_dim` along axes `[0, 1]` reads, at `(i, j, u)`, the
    operand at `(i, j)`. -/
theorem broadcastInDim_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (u : Fin 1) :
    broadcastInDim ⟨3, ![a, b, 1]⟩ (![0, 1] : Fin 2 → Fin 3) h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-! ## Sums -/

/-- A sum over the merged axis is the double sum over the two axes it merges: if `f` at `k = p·d + q` is `g p q`, the
    sum of `f` over the `c·d` positions is the sum of `g` over the pairs. -/
theorem sum_merged_eq {M : Type*} [AddCommMonoid M] {c d e : ℕ} (he : e = c * d) (f : Fin e → M) (g : Fin c → Fin d → M)
    (hfg : ∀ (p : Fin c) (q : Fin d) (k : Fin e), k.val = p.val * d + q.val → f k = g p q) :
    ∑ k : Fin e, f k = ∑ p : Fin c, ∑ q : Fin d, g p q := by
  subst he
  rw [← finProdFinEquiv.sum_comp, Fintype.sum_prod_type]
  refine Finset.sum_congr rfl fun p _ => Finset.sum_congr rfl fun q _ => hfg p q _ ?_
  rw [finProdFinEquiv_apply_val]
  exact (by ring : q.val + d * p.val = p.val * d + q.val)

/-- Over axis 2 of a rank-3 shape, the index lifted from `(i, j)` with coordinate `k` inserted is `(i, j, k)`. -/
theorem lift3_axis2 {n0 n1 n2 : ℕ}
    (hred : (⟨3, ![n0, n1, n2]⟩ : Shape).Reduces [2] ⟨2, ![n0, n1]⟩) (i : Fin n0) (j : Fin n1) (k : Fin n2) :
    hred.lift (ix2 i j) k = ix3 i j k := by
  funext ax
  match ax with
  | ⟨0, _⟩ => exact Fin.ext rfl
  | ⟨1, _⟩ => exact Fin.ext rfl
  | ⟨2, _⟩ => exact Fin.ext rfl

/-- At the exact values a `multi_reduction <add>` of an `[n0, n1, n2]` vector over its last axis from `+0.0`, read at
    `(i, j)`, is the sum over `k` of the vector at `(i, j, k)`. -/
theorem sum_last_of3 {n0 n1 n2 : ℕ} (v : Vec Ideal ⟨3, ![n0, n1, n2]⟩ .f32)
    (hred : (⟨3, ![n0, n1, n2]⟩ : Shape).Reduces [2] ⟨2, ![n0, n1]⟩) (hφ : FKind.Formats .f32)
    (hacc : (0x00000000#32 : BitVec 32) = 0x00000000#32) (i : Fin n0) (j : Fin n1) :
    multiReduction (F := Ideal) .add [2] ⟨2, ![n0, n1]⟩ v 0x00000000#32 hred hφ hacc (ix2 i j)
      = ∑ k : Fin n2, v (ix3 i j k) :=
  (Ideal.multiReduction_add_single (φ := .f32) v 0x00000000#32 hred hφ hacc (ix2 i j)).trans
    (Finset.sum_congr rfl fun k _ => congrArg v (lift3_axis2 hred i j k))

/-! ## The host's sum over the two trailing axes of a rank-four array -/

/-- Dropping axes 2 and 3 keeps coordinate 0 … -/
theorem drop23_val0 {n0 n1 n2 n3 : ℕ} (h₁ : (⟨4, ![n0, n1, n2, n3]⟩ : Shape).ReducesTo [2, 3] ⟨2, ![n0, n1]⟩)
    (y : (⟨4, ![n0, n1, n2, n3]⟩ : Shape).Idx) : ((h₁.drop y) 0).val = (y 0).val := rfl
/-- … and coordinate 1. -/
theorem drop23_val1 {n0 n1 n2 n3 : ℕ} (h₁ : (⟨4, ![n0, n1, n2, n3]⟩ : Shape).ReducesTo [2, 3] ⟨2, ![n0, n1]⟩)
    (y : (⟨4, ![n0, n1, n2, n3]⟩ : Shape).Idx) : ((h₁.drop y) 1).val = (y 1).val := rfl

/-- An index of `[n0, n1, n2, n3]` drops (axes 2 and 3 removed) to `(i, j)` exactly when its first two coordinates are
    `i` and `j`. -/
theorem drop23_eq_iff {n0 n1 n2 n3 : ℕ} (h₁ : (⟨4, ![n0, n1, n2, n3]⟩ : Shape).ReducesTo [2, 3] ⟨2, ![n0, n1]⟩)
    (y : (⟨4, ![n0, n1, n2, n3]⟩ : Shape).Idx) (i : Fin n0) (j : Fin n1) :
    h₁.drop y = ix2 i j ↔ (y 0).val = i.val ∧ (y 1).val = j.val := by
  constructor
  · intro hy
    exact ⟨(drop23_val0 h₁ y).symm.trans (congrArg (fun z : (⟨2, ![n0, n1]⟩ : Shape).Idx => (z 0).val) hy),
      (drop23_val1 h₁ y).symm.trans (congrArg (fun z : (⟨2, ![n0, n1]⟩ : Shape).Idx => (z 1).val) hy)⟩
  · rintro ⟨h0, h1⟩
    funext ax
    match ax with
    | ⟨0, _⟩ => exact Fin.ext ((drop23_val0 h₁ y).trans h0)
    | ⟨1, _⟩ => exact Fin.ext ((drop23_val1 h₁ y).trans h1)

/-- The map `(p, q) ↦ (i, j, p, q)` is injective. -/
theorem ix4_pair_injective {n0 n1 n2 n3 : ℕ} (i : Fin n0) (j : Fin n1) :
    Function.Injective (fun pq : Fin n2 × Fin n3 => (ix4 i j pq.1 pq.2 : (⟨4, ![n0, n1, n2, n3]⟩ : Shape).Idx)) :=
  fun _ _ e => Prod.ext (congrFun e 2) (congrFun e 3)

/-- So the indices that drop to `(i, j)` are the image of the pairs under `(p, q) ↦ (i, j, p, q)`. -/
theorem filter_drop23_eq_image {n0 n1 n2 n3 : ℕ} (h₁ : (⟨4, ![n0, n1, n2, n3]⟩ : Shape).ReducesTo [2, 3] ⟨2, ![n0, n1]⟩)
    (i : Fin n0) (j : Fin n1) [DecidablePred fun y => h₁.drop y = ix2 i j] :
    (Finset.univ.filter fun y => h₁.drop y = ix2 i j)
      = Finset.univ.image (fun pq : Fin n2 × Fin n3 => (ix4 i j pq.1 pq.2 : (⟨4, ![n0, n1, n2, n3]⟩ : Shape).Idx)) := by
  ext y
  simp only [Finset.mem_filter, Finset.mem_univ, true_and, Finset.mem_image, drop23_eq_iff]
  constructor
  · rintro ⟨h0, h1⟩
    refine ⟨(y 2, y 3), ?_⟩
    funext ax
    match ax with
    | ⟨0, _⟩ => exact Fin.ext h0.symm
    | ⟨1, _⟩ => exact Fin.ext h1.symm
    | ⟨2, _⟩ => rfl
    | ⟨3, _⟩ => rfl
  · rintro ⟨pq, rfl⟩
    exact ⟨rfl, rfl⟩

/-- At the exact values the host's sum over axes 2 and 3 of an `[n0, n1, n2, n3]` array, from the initial value
    `init`, read at `(i, j)`, is `init` plus the double sum over `p` and `q` of the array at `(i, j, p, q)`. -/
theorem hostReduceAdd_axes23 {n0 n1 n2 n3 : ℕ} (x : (⟨4, ![n0, n1, n2, n3]⟩ : Shape).Idx → EReal)
    (h₁ : (⟨4, ![n0, n1, n2, n3]⟩ : Shape).ReducesTo [2, 3] ⟨2, ![n0, n1]⟩) (init : EReal) (i : Fin n0) (j : Fin n1) :
    Ideal.hostReduceAdd h₁ x init (ix2 i j) = init + ∑ p : Fin n2, ∑ q : Fin n3, x (ix4 i j p q) := by
  unfold Ideal.hostReduceAdd
  rw [filter_drop23_eq_image, Finset.sum_image (fun pq _ rs _ e => ix4_pair_injective i j e), Fintype.sum_prod_type]

end Cert.LibTrailingFlatten

end
-- ==== Proof.PoolValue.lean ====
/-
  What the pooling launch leaves in its output array.

  The launch walks a grid of 8 × 2 points; at point `(s, r)` it stages rows `8s … 8s+7`, channels `128r … 128r+127` of
  the `[64, 256, 3136]` input, sums each staged row over its 3136 positions, divides by the constant 3136 and writes
  the `[8, 128, 1]` block of quotients back to the same rows and channels of the `[64, 256, 1]` output.  Every entry of the
  output lies in exactly one such block, so after the launch the output is one function of the input as the launch
  found it: entry `(b, ch, 0)` is the sum over `k` of the input at `(b, ch, k)`, divided by 3136.  Stated for any contents
  `V` of the buffers at the launch's entry.
-/
import proofs.«144357_j18081812316801_2_alg».proof.Proof.Gen.KernelIdeal.Frame
import proofs.«144357_j18081812316801_2_alg».proof.Proof.LibTrailingFlatten
import Idealize.ShloMosaic.Lib.Pipeline.Value
import Idealize.ShloMosaic.Lib.ValueIdx

set_option maxRecDepth 16384

noncomputable section

open scoped BigOperators

namespace Cert.KernelIdeal.Pool

open Cert.KernelIdeal Cert.KernelIdeal.Gen Idealize.ShloMosaic Idealize.ShloMosaic.TcCoe Idealize.SL.Sem
open Idealize.ShloMosaic.ValueIdx Cert.LibTrailingFlatten
open Idealize.ShloMosaic.Pipeline (Dat)

/-! ## The function -/

/-- The mean of row `(b, ch)` of a `[64, 256, 3136]` array as the launch takes it: the sum over the 3136 positions,
    divided by the f32 constant 3136. -/
def meanAt (xf : S64x256x3136.Idx → EReal) (b : Fin 64) (ch : Fin 256) : EReal :=
  Ideal.div (∑ k : Fin 3136, xf (ix3 b ch k)) (Ideal.ofBits .f32 0x45440000#32)

/-- The `[64, 256, 1]` array of those means. -/
def pooled (xf : S64x256x3136.Idx → EReal) : S64x256x1.Idx → EReal :=
  fun i => meanAt xf ⟨(i 0).val, (i 0).isLt⟩ ⟨(i 1).val, (i 1).isLt⟩

theorem pooled_apply (xf : S64x256x3136.Idx → EReal) (b : Fin 64) (ch : Fin 256) (u : Fin 1) :
    pooled xf (ix3 b ch u) = meanAt xf b ch := rfl

/-! ## The body's arithmetic at an index -/

/-- The stored block at `(p, q, u)`: the staged block's row `(p, q)` summed over its positions, divided by 3136. -/
theorem pay_at (v0 : Vec Ideal S8x128x3136 .f32) (p : Fin 8) (q : Fin 128) (u : Fin 1) :
    k0_pay1 (F := Ideal) v0 (ix3 p q u)
      = Ideal.div (∑ k : Fin 3136, v0 (ix3 p q k)) (Ideal.ofBits .f32 0x45440000#32) := by
  unfold k0_pay1
  exact (divf_apply _ _ _).trans (congrArg₂ Ideal.div
    ((shapeCast_ab_ab1_apply _ _ p q u).trans ((sum_last_of3 _ _ _ _ p q).trans
      (Finset.sum_congr rfl fun k _ => congrFun (shapeCast_self v0 _) (ix3 p q k)))) rfl)

/-- The same at any index of the block. -/
theorem pay_apply (v0 : Vec Ideal S8x128x3136 .f32) (y : S8x128x1.Idx) :
    k0_pay1 (F := Ideal) v0 y
      = Ideal.div (∑ k : Fin 3136, v0 (ix3 (⟨(y 0).val, (y 0).isLt⟩ : Fin 8) (⟨(y 1).val, (y 1).isLt⟩ : Fin 128) k))
          (Ideal.ofBits .f32 0x45440000#32) := by
  obtain ⟨p, q, u, rfl⟩ : ∃ (p : Fin 8) (q : Fin 128) (u : Fin 1), y = ix3 p q u := ⟨y 0, y 1, y 2, eq_ix3 y⟩
  exact pay_at v0 p q u

/-! ## From blocks to the array -/

variable (V : (c : Dev nD) → (b : Ref sig .tc) → Buf (Elt Ideal) ((c : Thread nD τ).loc b))

theorem off_zero : (![0, 0, 0] : Fin 3 → Nat) = fun _ => 0 := funext fun a => by fin_cases a <;> rfl

/-- The two windows move together over the grid: the same row block and channel block, position block 0. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every pair of a row block and a channel block is some point's. -/
theorem index_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- What point `t` writes back is block `t` of the array of means of the input as the launch found it. -/
theorem flushed_eq (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero off_zero]
  simp only [View.ld_unit_zero (S := S8x128x3136) off_zero]
  obtain ⟨e0, e1, e2, e3⟩ := index_facts t
  funext j
  refine (pay_apply (iblk0 V c 0 t) j).trans ?_
  show Ideal.div (∑ k : Fin 3136, V c main_v0 (((cfg0.win 0).blk t).view.emb
        (ix3 (⟨(j 0).val, (j 0).isLt⟩ : Fin 8) (⟨(j 1).val, (j 1).isLt⟩ : Fin 128) k))) _
      = Ideal.div (∑ k : Fin 3136, V c main_v0 (ix3
        (⟨((((cfg0.win 1).blk t).view.emb j) 0).val, ((((cfg0.win 1).blk t).view.emb j) 0).isLt⟩ : Fin 64)
        (⟨((((cfg0.win 1).blk t).view.emb j) 1).val, ((((cfg0.win 1).blk t).view.emb j) 1).isLt⟩ : Fin 256) k)) _
  refine congrArg₂ Ideal.div (Finset.sum_congr rfl fun k _ => congrArg (V c main_v0) ?_) rfl
  funext a; apply Fin.ext
  match a with
  | ⟨0, _⟩ => show win0_0.index t (0 : Fin 3) * 8 + 1 * (j 0).val = win0_1.index t (0 : Fin 3) * 8 + 1 * (j 0).val; omega
  | ⟨1, _⟩ => show win0_0.index t (1 : Fin 3) * 128 + 1 * (j 1).val = win0_1.index t (1 : Fin 3) * 128 + 1 * (j 1).val; omega
  | ⟨2, _⟩ => show win0_0.index t (2 : Fin 3) * 3136 + 1 * k.val = k.val; omega

/-- An index of the output is in point `t`'s block iff each coordinate is in the block's range on its axis. -/
theorem mem_blk (t : Fin cfg0.N) (i : S64x256x1.Idx) :
    i ∈ ((cfg0.win 1).blk t).view.set ↔ ∀ a : Fin 3, win0_1.index t a * S8x128x1.size a ≤ (i a).val ∧ (i a).val < win0_1.index t a * S8x128x1.size a + S8x128x1.size a := by
  show i ∈ ((View.whole main_v1).slice (win0_1.rect t)).set ↔ _
  rw [View.set_slice_whole, Rect.mem_set_unit]
  exact Iff.rfl

/-- Every entry of the output is in some point's block: rows `8s … 8s+7` and channels `128r … 128r+127` at point `(s, r)`. -/
theorem cover (i : S64x256x1.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hi2 : (i 2).val < 1 := (i 2).isLt
  obtain ⟨t, ht⟩ := index_onto ⟨(i 0).val / 8, by omega⟩ ⟨(i 1).val / 128, by omega⟩
  have q0 : win0_1.index t (0 : Fin 3) = (i 0).val / 8 := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 128 ≤ (i 1).val ∧ (i 1).val < win0_1.index t (1 : Fin 3) * 128 + 128; omega
  | ⟨2, _⟩ => show win0_1.index t (2 : Fin 3) * 1 ≤ (i 2).val ∧ (i 2).val < win0_1.index t (2 : Fin 3) * 1 + 1; omega

/-- After the launch its output array is the array of means of the input array as the launch found it. -/
theorem final (c : Dev nD) : (dat0 V c).arrAt 1 cfg0.N = pooled (V c main_v0) :=
  (dat0 V c).arrAt_eq_of_cover 1 (pooled (V c main_v0)) (fun t _ => flushed_eq V c t) cover

/-- The launch only reads its input array. -/
theorem kept_input (c : Dev nD) : (dat0 V c).arrAt 0 cfg0.N = V c main_v0 :=
  ((dat0 V c).arrAt_in 0 rfl _).trans (A_eq0 V c 0)

end Cert.KernelIdeal.Pool

end
-- ==== Proof.ScaleValue.lean ====
/-
  What the scaling launch leaves in its output array.

  The launch walks the same 8 × 2 grid; at point `(s, r)` it stages rows `8s … 8s+7`, channels `128r … 128r+127` of the
  `[64, 256, 3136]` input and of the `[64, 256, 1]` weight, multiplies every staged entry by its row's weight and writes the
  `[8, 128, 3136]` block of products back to the same rows and channels of the output.  Every entry of the output lies in
  exactly one such block, so after the launch entry `(b, ch, k)` of the output is the input at `(b, ch, k)` times the weight
  at `(b, ch, 0)`, both as the launch found them.  Stated for any contents `V` of the buffers at the launch's entry.
-/
import proofs.«144357_j18081812316801_2_alg».proof.Proof.Gen.KernelIdeal.Frame
import proofs.«144357_j18081812316801_2_alg».proof.Proof.LibTrailingFlatten
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.SL.Sem
open Idealize.ShloMosaic.ValueIdx Cert.LibTrailingFlatten
open Idealize.ShloMosaic.Pipeline (Dat)

/-! ## The function -/

/-- Every entry of a `[64, 256, 3136]` array times its row's entry of a `[64, 256, 1]` array. -/
def scaled (xf : S64x256x3136.Idx → EReal) (g : S64x256x1.Idx → EReal) : S64x256x3136.Idx → EReal :=
  fun i => xf i * g (ix3 (⟨(i 0).val, (i 0).isLt⟩ : Fin 64) (⟨(i 1).val, (i 1).isLt⟩ : Fin 256) (0 : Fin 1))

theorem scaled_apply (xf : S64x256x3136.Idx → EReal) (g : S64x256x1.Idx → EReal) (b : Fin 64) (ch : Fin 256) (k : Fin 3136) :
    scaled xf g (ix3 b ch k) = xf (ix3 b ch k) * g (ix3 b ch (0 : Fin 1)) := rfl

/-! ## The body's arithmetic at an index -/

/-- The stored block at `(p, q, k)`: the staged entry times the staged weight of its row. -/
theorem pay_at (v0 : Vec Ideal S8x128x3136 .f32) (v2 : Vec Ideal S8x128x1 .f32) (p : Fin 8) (q : Fin 128) (k : Fin 3136) :
    k1_pay1 (F := Ideal) v0 v2 (ix3 p q k) = v0 (ix3 p q k) * v2 (ix3 p q (0 : Fin 1)) := by
  unfold k1_pay1
  exact (mulf_apply _ _ _).trans (congrArg₂ (· * ·) (congrFun (shapeCast_self v0 _) (ix3 p q k))
    ((broadcastTo_ab1_abc_apply _ _ p q k).trans (congrFun (shapeCast_self v2 _) (ix3 p q (0 : Fin 1)))))

/-- The same at any index of the block. -/
theorem pay_apply (v0 : Vec Ideal S8x128x3136 .f32) (v2 : Vec Ideal S8x128x1 .f32) (y : S8x128x3136.Idx) :
    k1_pay1 (F := Ideal) v0 v2 y
      = v0 y * v2 (ix3 (⟨(y 0).val, (y 0).isLt⟩ : Fin 8) (⟨(y 1).val, (y 1).isLt⟩ : Fin 128) (0 : Fin 1)) := by
  obtain ⟨p, q, k, rfl⟩ : ∃ (p : Fin 8) (q : Fin 128) (k : Fin 3136), y = ix3 p q k := ⟨y 0, y 1, y 2, eq_ix3 y⟩
  exact pay_at v0 v2 p q k

/-! ## From blocks to the array -/

/-- One entry of the first array times one entry of the second. -/
def mulAt (f : S64x256x3136.Idx → EReal) (g : S64x256x1.Idx → EReal) (i : S64x256x3136.Idx) (r : S64x256x1.Idx) : EReal :=
  f i * g r

variable (V : (c : Dev nD) → (b : Ref sig .tc) → Buf (Elt Ideal) ((c : Thread nD τ).loc b))

theorem off_zero : (![0, 0, 0] : Fin 3 → Nat) = fun _ => 0 := funext fun a => by fin_cases a <;> rfl

/-- The three windows move together over the grid: the same row block and channel block, last block index 0. -/
theorem index_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 3) = win1_2.index t (0 : Fin 3)
    ∧ win1_1.index t (1 : Fin 3) = win1_2.index t (1 : Fin 3)
    ∧ win1_1.index t (2 : Fin 3) = 0 ∧ win1_2.index t (2 : Fin 3) = 0 :=
  (by decide +kernel : ∀ t : Fin grid1.N, _)

/-- Every pair of a row block and a channel block is some point's. -/
theorem index_onto : ∀ (q0 : Fin 8) (q1 : Fin 2), ∃ t : Fin cfg1.N, win1_2.index t = ![q0.val, q1.val, 0] :=
  (by decide +kernel : ∀ (q0 : Fin 8) (q1 : Fin 2), ∃ t : Fin grid1.N, win1_2.index t = ![q0.val, q1.val, 0])

/-- What point `t` writes back is block `t` of the scaled array of the two inputs as the launch found them. -/
theorem flushed_eq (c : Dev nD) (t : Fin cfg1.N) :
    (dat1 V c).flushed 2 t = ((cfg1.win 2).blk t).view.read (Elt Ideal) (scaled (V c main_v0) (V c main_v18)) := by
  show (cfg1.win 2).cut (grid1.coords t) ((dat1 V c).after 2 t) = _
  rw [after1_2]
  unfold out1_2
  rw [View.canon_unit_zero off_zero]
  simp only [View.ld_unit_zero (S := S8x128x3136) off_zero, View.ld_unit_zero (S := S8x128x1) off_zero]
  obtain ⟨e0, e1, e2, e3, e4, e5, e6⟩ := index_facts t
  funext j
  refine (pay_apply (iblk1 V c 0 t) (iblk1 V c 1 t) j).trans ?_
  show mulAt (V c main_v0) (V c main_v18) (((cfg1.win 0).blk t).view.emb j)
        (((cfg1.win 1).blk t).view.emb
            (ix3 (⟨(j 0).val, (j 0).isLt⟩ : Fin 8) (⟨(j 1).val, (j 1).isLt⟩ : Fin 128) (0 : Fin 1)))
      = mulAt (V c main_v0) (V c main_v18) (((cfg1.win 2).blk t).view.emb j)
        (ix3
            (⟨((((cfg1.win 2).blk t).view.emb j) 0).val, ((((cfg1.win 2).blk t).view.emb j) 0).isLt⟩ : Fin 64)
            (⟨((((cfg1.win 2).blk t).view.emb j) 1).val, ((((cfg1.win 2).blk t).view.emb j) 1).isLt⟩ : Fin 256) (0 : Fin 1))
  refine congrArg₂ (mulAt (V c main_v0) (V c main_v18)) ?_ ?_
  · funext a; apply Fin.ext
    match a with
    | ⟨0, _⟩ => show win1_0.index t (0 : Fin 3) * 8 + 1 * (j 0).val = win1_2.index t (0 : Fin 3) * 8 + 1 * (j 0).val; omega
    | ⟨1, _⟩ => show win1_0.index t (1 : Fin 3) * 128 + 1 * (j 1).val = win1_2.index t (1 : Fin 3) * 128 + 1 * (j 1).val; omega
    | ⟨2, _⟩ => show win1_0.index t (2 : Fin 3) * 3136 + 1 * (j 2).val = win1_2.index t (2 : Fin 3) * 3136 + 1 * (j 2).val; omega
  · funext a; apply Fin.ext
    match a with
    | ⟨0, _⟩ => show win1_1.index t (0 : Fin 3) * 8 + 1 * (j 0).val = win1_2.index t (0 : Fin 3) * 8 + 1 * (j 0).val; omega
    | ⟨1, _⟩ => show win1_1.index t (1 : Fin 3) * 128 + 1 * (j 1).val = win1_2.index t (1 : Fin 3) * 128 + 1 * (j 1).val; omega
    | ⟨2, _⟩ => show win1_1.index t (2 : Fin 3) * 1 + 1 * 0 = 0; omega

/-- An index of the output is in point `t`'s block iff each coordinate is in the block's range on its axis. -/
theorem mem_blk (t : Fin cfg1.N) (i : S64x256x3136.Idx) :
    i ∈ ((cfg1.win 2).blk t).view.set ↔ ∀ a : Fin 3, win1_2.index t a * S8x128x3136.size a ≤ (i a).val ∧ (i a).val < win1_2.index t a * S8x128x3136.size a + S8x128x3136.size a := by
  show i ∈ ((View.whole main_v19).slice (win1_2.rect t)).set ↔ _
  rw [View.set_slice_whole, Rect.mem_set_unit]
  exact Iff.rfl

/-- Every entry of the output is in some point's block. -/
theorem cover (i : S64x256x3136.Idx) :
    ∃ t : Fin cfg1.N, (cfg1.win 2).flush t = true ∧ i ∈ ((cfg1.win 2).blk t).view.set := by
  have hi0 : (i 0).val < 64 := (i 0).isLt
  have hi1 : (i 1).val < 256 := (i 1).isLt
  have hi2 : (i 2).val < 3136 := (i 2).isLt
  obtain ⟨t, ht⟩ := index_onto ⟨(i 0).val / 8, by omega⟩ ⟨(i 1).val / 128, by omega⟩
  have q0 : win1_2.index t (0 : Fin 3) = (i 0).val / 8 := congrFun ht 0
  have q1 : win1_2.index t (1 : Fin 3) = (i 1).val / 128 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 3136 ≤ (i 2).val ∧ (i 2).val < win1_2.index t (2 : Fin 3) * 3136 + 3136; omega

/-- After the launch its output array is the scaled array of its two input arrays as the launch found them. -/
theorem final (c : Dev nD) : (dat1 V c).arrAt 2 cfg1.N = scaled (V c main_v0) (V c main_v18) :=
  (dat1 V c).arrAt_eq_of_cover 2 (scaled (V c main_v0) (V c main_v18)) (fun t _ => flushed_eq V c t) cover

end Cert.KernelIdeal.Scale

end
-- ==== Proof.KernelValue.lean ====
/-
  The idealized kernel program's result as one function of its five arguments.

  Reading the contents of the result's buffer at the last segment boundary back through the seven segments: the result is
  the scaling launch's output with its merged axis split into 56 × 56 again; that output is the merged input times the
  weight (the scaling launch, `Scale.final`); the weight is the host's small network — a product with `w1`, plus `b1`, the
  rectifier, a product with `w2`, plus `b2`, then `1 / (1 + exp(-·))` — applied to the pooled means with their unit axis
  dropped; and the pooled means are the pooling launch's output (`Pool.final`) of the merged input, which neither launch
  nor any host line changes in between.
-/
import proofs.«144357_j18081812316801_2_alg».proof.Proof.Gen.KernelIdeal.Frame
import proofs.«144357_j18081812316801_2_alg».proof.Proof.PoolValue
import proofs.«144357_j18081812316801_2_alg».proof.Proof.ScaleValue
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-! ## The functions -/

/-- The host's network between the two launches, from the `[64, 256]` means to the `[64, 256]` weight. -/
def weightOf (s : FVec Ideal S64x256 .f32) (w1 : FVec Ideal S16x256 .f32) (b1 : FVec Ideal S16 .f32)
    (w2 : FVec Ideal S256x16 .f32) (b2 : FVec Ideal S256 .f32) : FVec Ideal S64x256 .f32 :=
  Host.divf (F := Ideal) (broadcastInDim S64x256 ![] bcast_S_S64x256 (constant (F := Ideal) S_ .f32 0x3F800000#32))
    (addf (broadcastInDim S64x256 ![] bcast_S_S64x256 (constant (F := Ideal) S_ .f32 0x3F800000#32))
      (Host.exp (F := Ideal) (Host.negf (F := Ideal)
        (addf
          (Host.dotGeneral (F := Ideal) dot_S64x16_S256x16_S64x256_1_1_0_0_n_n (some .fp32)
            (maximumf
              (addf (Host.dotGeneral (F := Ideal) dot_S64x256_S16x256_S64x16_1_1_0_0_n_n (some .fp32) s w1)
                (broadcastInDim S64x16 ![0, 1] bcast_S1x16_S64x16_0_1 (broadcastInDim S1x16 ![1] bcast_S16_S1x16_1 b1)))
              (broadcastInDim S64x16 ![] bcast_S_S64x16 (constant (F := Ideal) S_ .f32 0x00000000#32)))
            w2)
          (broadcastInDim S64x256 ![0, 1] bcast_S1x256_S64x256_0_1 (broadcastInDim S1x256 ![1] bcast_S256_S1x256_1 b2))))))

/-- The input with its two trailing axes merged. -/
def merged (x : FVec Ideal S64x256x56x56 .f32) : FVec Ideal S64x256x3136 .f32 :=
  shapeCast S64x256x3136 x shapeCasts_S64x256x56x56_S64x256x3136

/-- The pooled means of the input, as a `[64, 256]` array. -/
def means (x : FVec Ideal S64x256x56x56 .f32) : FVec Ideal S64x256 .f32 :=
  shapeCast S64x256 (Pool.pooled (merged x)) shapeCasts_S64x256x1_S64x256

/-- The program's result as a function of its arguments. -/
def result (x : FVec Ideal S64x256x56x56 .f32) (w1 : FVec Ideal S16x256 .f32) (b1 : FVec Ideal S16 .f32)
    (w2 : FVec Ideal S256x16 .f32) (b2 : FVec Ideal S256 .f32) : FVec Ideal S64x256x56x56 .f32 :=
  shapeCast S64x256x56x56
    (Scale.scaled (merged x)
      (broadcastInDim S64x256x1 ![0, 1] bcast_S64x256_S64x256x1_0_1 (weightOf (means x) w1 b1 w2 b2)))
    shapeCasts_S64x256x3136_S64x256x56x56

/-! ## The buffers' contents, boundary by boundary -/

variable (m : (ℓ : Loc nD τ sig) → Buf (Elt Ideal) ℓ) (ρ : Dev nD → PrngReg)

/-- Entering the pooling launch the merged input's buffer holds the merged first argument. -/
theorem W1_v0 (c : Dev nD) :
    (W1 m ρ c (Proc.devRef .tc main_v0) : S64x256x3136.Idx → EReal) = merged (m ((c : Thread nD τ).loc main_arg0)) := by
  show StableHlo.after hostOps0 (W0 m ρ c) (Proc.devRef .tc main_v0) = _
  after_results
  rfl

/-- Nothing between the pooling launch's entry and the scaling launch's entry writes the merged input's buffer: the
    pooling launch only reads it, and the host lines write other buffers. -/
theorem W5_v0 (c : Dev nD) :
    (W5 m ρ c (Proc.devRef .tc main_v0) : S64x256x3136.Idx → EReal) = merged (m ((c : Thread nD τ).loc main_arg0)) := by
  have h5 : W5 m ρ c (Proc.devRef .tc main_v0) = W2 m ρ c (Proc.devRef .tc main_v0) := by
    show StableHlo.after hostOps1_2 (StableHlo.after hostOps1_1 (StableHlo.after hostOps1 (W2 m ρ c))) (Proc.devRef .tc main_v0) = _
    after_results <;> rfl
  have h2 : W2 m ρ c (Proc.devRef .tc main_v0) = W1 m ρ c (Proc.devRef .tc main_v0) :=
    (W2_arr m ρ c 0).trans (Pool.kept_input (V1 m ρ) c)
  exact h5.trans (h2.trans (W1_v0 m ρ c))

/-- Leaving the pooling launch its output buffer holds the pooled means of the merged first argument. -/
theorem W2_v1 (c : Dev nD) :
    (W2 m ρ c (Proc.devRef .tc main_v1) : S64x256x1.Idx → EReal)
      = Pool.pooled (merged (m ((c : Thread nD τ).loc main_arg0))) :=
  (W2_arr m ρ c 1).trans ((Pool.final (V1 m ρ) c).trans (congrArg Pool.pooled (W1_v0 m ρ c)))

/-- The other four arguments are as launched when the pooling launch returns. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

/-- The host lines between the launches: entering the scaling launch the weight's buffer holds the network's value at the
    pooling launch's output (its unit axis dropped) and the four small arguments, with a trailing unit axis. -/
theorem W5_v18 (c : Dev nD) :
    (W5 m ρ c (Proc.devRef .tc main_v18) : S64x256x1.Idx → EReal)
      = broadcastInDim S64x256x1 ![0, 1] bcast_S64x256_S64x256x1_0_1
          (weightOf (shapeCast S64x256 (W2 m ρ c (Proc.devRef .tc main_v1)) shapeCasts_S64x256x1_S64x256)
            (W2 m ρ c (Proc.devRef .tc main_arg1)) (W2 m ρ c (Proc.devRef .tc main_arg2))
            (W2 m ρ c (Proc.devRef .tc main_arg3)) (W2 m ρ c (Proc.devRef .tc main_arg4))) := by
  show StableHlo.after hostOps1_2 (StableHlo.after hostOps1_1 (StableHlo.after hostOps1 (W2 m ρ c))) (Proc.devRef .tc main_v18) = _
  after_results <;> rfl

/-- Leaving the scaling launch its output buffer holds the scaled array of what the launch found. -/
theorem W6_v19 (c : Dev nD) :
    (W6 m ρ c (Proc.devRef .tc main_v19) : S64x256x3136.Idx → EReal)
      = Scale.scaled (W5 m ρ c (Proc.devRef .tc main_v0)) (W5 m ρ c (Proc.devRef .tc main_v18)) :=
  (W6_arr m ρ c 2).trans (Scale.final (V5 m ρ) c)

/-- The last host line splits the merged axis again. -/
theorem W7_v20 (c : Dev nD) :
    (W7 m ρ c (Proc.devRef .tc main_v20) : S64x256x56x56.Idx → EReal)
      = shapeCast S64x256x56x56 (W6 m ρ c (Proc.devRef .tc main_v19)) shapeCasts_S64x256x3136_S64x256x56x56 := by
  show StableHlo.after hostOps2 (W6 m ρ c) (Proc.devRef .tc main_v20) = _
  after_results <;> rfl

theorem weightOf_congr {s s' : FVec Ideal S64x256 .f32} {w1 w1' : FVec Ideal S16x256 .f32} {b1 b1' : FVec Ideal S16 .f32}
    {w2 w2' : FVec Ideal S256x16 .f32} {b2 b2' : FVec Ideal S256 .f32}
    (hs : s = s') (h1 : w1 = w1') (h2 : b1 = b1') (h3 : w2 = w2') (h4 : b2 = b2') :
    weightOf s w1 b1 w2 b2 = weightOf s' w1' b1' w2' b2' := by
  subst hs h1 h2 h3 h4; rfl

/-- THE RESULT'S BUFFER at the return holds `result` of the five arguments as launched. -/
theorem W7_result (c : Dev nD) :
    (W7 m ρ c (Proc.devRef .tc main_v20) : S64x256x56x56.Idx → EReal)
      = result (m ((c : Thread nD τ).loc main_arg0)) (m ((c : Thread nD τ).loc main_arg1))
          (m ((c : Thread nD τ).loc main_arg2)) (m ((c : Thread nD τ).loc main_arg3)) (m ((c : Thread nD τ).loc main_arg4)) :=
  by
  refine (W7_v20 m ρ c).trans ?_
  unfold result
  refine congrArg (fun z : S64x256x3136.Idx → EReal => shapeCast S64x256x56x56 z shapeCasts_S64x256x3136_S64x256x56x56) ?_
  refine (W6_v19 m ρ c).trans ?_
  refine congrArg₂ Scale.scaled (W5_v0 m ρ c) ?_
  refine (W5_v18 m ρ c).trans ?_
  refine congrArg (fun z : S64x256.Idx → EReal => broadcastInDim S64x256x1 ![0, 1] bcast_S64x256_S64x256x1_0_1 z) ?_
  refine weightOf_congr ?_ (W2_arg1 m ρ c) (W2_arg2 m ρ c) (W2_arg3 m ρ c) (W2_arg4 m ρ c)
  unfold means
  exact congrArg (fun z : S64x256x1.Idx → EReal => shapeCast S64x256 z shapeCasts_S64x256x1_S64x256) (W2_v1 m ρ c)

end Cert.KernelIdeal.Whole

end
-- ==== Proof.Bridge.lean ====
/-
  The reference's result is the kernel program's result, entry by entry.

  Both are the input at `(b, ch, p, q)` times a weight at `(b, ch)`.  The two weights are one function — the host's small
  network, written with the same operations in both programs (at the exact values a matrix product does not depend on
  the precision it was asked for) — of the per-channel means.  The means agree because the kernel program's sum over the
  merged axis of 3136 positions is the reference's double sum over the 56 × 56 positions it merges, and both divide by
  the same constant 3136.  Addition of extended reals is commutative and associative, so the regrouping needs no
  finiteness.
-/
import proofs.«144357_j18081812316801_2_alg».proof.Proof.KernelValue
import proofs.«144357_j18081812316801_2_alg».proof.Proof.Gen.ReferenceIdeal.Read
import proofs.«144357_j18081812316801_2_alg».proof.Proof.LibTrailingFlatten
import Idealize.ShloMosaic.Lib.ValueIdx
import Idealize.ShloMosaic.PureOps.Ideal.Laws

set_option maxRecDepth 16384

noncomputable section

open scoped BigOperators

namespace Cert.Bridge

open Idealize.ShloMosaic Idealize.ShloMosaic.ValueIdx Cert.LibTrailingFlatten
open Cert.ReferenceIdeal Cert.ReferenceIdeal.Gen Cert.ReferenceIdeal.Read
open Cert.KernelIdeal.Whole

/-- The reference's mean of channel `(b, ch)`: the double sum over the 56 × 56 positions, divided by 3136. -/
theorem ref_mean (x : FVec Ideal S64x256x56x56 .f32) (b : Fin 64) (ch : Fin 256) :
    val_main_v2 (F := Ideal) x (ix2 b ch)
      = Ideal.div (∑ p : Fin 56, ∑ q : Fin 56, x (ix4 b ch p q)) (Ideal.ofBits .f32 0x45440000#32) := by
  rw [val_main_v2_apply, val_main_v1_apply, val_main_cst_0_apply]
  unfold val_main_v0
  show Ideal.div (Ideal.hostReduceAdd reducesTo_S64x256x56x56_S64x256_d2_3 x (Ideal.ofBits .f32 0x00000000#32) (ix2 b ch))
      (Ideal.ofBits .f32 0x45440000#32) = _
  rw [hostReduceAdd_axes23, Ideal.ofBits_zero_f32, zero_add]

/-- The kernel program's mean of channel `(b, ch)` is the same double sum, divided by the same constant. -/
theorem kernel_mean (x : FVec Ideal S64x256x56x56 .f32) (b : Fin 64) (ch : Fin 256) :
    means x (ix2 b ch)
      = Ideal.div (∑ p : Fin 56, ∑ q : Fin 56, x (ix4 b ch p q)) (Ideal.ofBits .f32 0x45440000#32) := by
  unfold means
  refine (shapeCast_ab1_ab_apply _ _ b ch).trans ?_
  show Ideal.div (∑ k : Fin 3136, merged x (ix3 b ch k)) (Ideal.ofBits .f32 0x45440000#32) = _
  refine congrArg (fun s : EReal => Ideal.div s (Ideal.ofBits .f32 0x45440000#32)) ?_
  exact sum_merged_eq (by norm_num : 3136 = 56 * 56) _ _ fun p q k hk =>
    shapeCast_abcd_abe_apply (by norm_num : 3136 = 56 * 56) x _ b ch p q k hk

/-- The two programs' means are one array. -/
theorem means_eq (x : FVec Ideal S64x256x56x56 .f32) : means x = val_main_v2 (F := Ideal) x := by
  funext i
  obtain ⟨b, ch, rfl⟩ : ∃ (b : Fin 64) (ch : Fin 256), i = ix2 b ch := ⟨i 0, i 1, eq_ix2 i⟩
  rw [kernel_mean, ref_mean]

/-- The reference's weight is the kernel program's network of the reference's means. -/
theorem weight_ref (x : FVec Ideal S64x256x56x56 .f32) (w1 : FVec Ideal S16x256 .f32) (b1 : FVec Ideal S16 .f32)
    (w2 : FVec Ideal S256x16 .f32) (b2 : FVec Ideal S256 .f32) :
    val_main_v17 (F := Ideal) x w1 b1 w2 b2 = weightOf (val_main_v2 (F := Ideal) x) w1 b1 w2 b2 := rfl

/-- THE BRIDGE: the kernel program's result is the reference's. -/
theorem result_eq (x : FVec Ideal S64x256x56x56 .f32) (w1 : FVec Ideal S16x256 .f32) (b1 : FVec Ideal S16 .f32)
    (w2 : FVec Ideal S256x16 .f32) (b2 : FVec Ideal S256 .f32) :
    result x w1 b1 w2 b2 = val_main_v20 (F := Ideal) x w1 b1 w2 b2 := by
  funext i
  obtain ⟨b, ch, p, q, rfl⟩ : ∃ (b : Fin 64) (ch : Fin 256) (p : Fin 56) (q : Fin 56), i = ix4 b ch p q :=
    ⟨i 0, i 1, i 2, i 3, eq_ix4 i⟩
  have hidx : idx_main_v18 (idx_main_v19 (ix4 b ch p q)) = ix2 b ch :=
    funext fun a => by match a with | ⟨0, _⟩ => rfl | ⟨1, _⟩ => rfl
  rw [val_main_v20_apply, val_main_v19_apply, val_main_v18_apply, hidx, weight_ref, ← means_eq]
  unfold result
  refine (shapeCast_abe_abcd_apply (by norm_num : 3136 = 56 * 56) _ _ b ch p q ⟨p.val * 56 + q.val, by omega⟩ rfl).trans ?_
  refine (Cert.KernelIdeal.Scale.scaled_apply _ _ b ch _).trans ?_
  exact congrArg₂ (fun u v : EReal => u * v)
    (shapeCast_abcd_abe_apply (by norm_num : 3136 = 56 * 56) x _ b ch p q _ rfl)
    (broadcastInDim_ab_ab1_apply _ _ b ch (0 : Fin 1))

end Cert.Bridge

end
-- ==== Proof.lean ====
/-
  Squeeze-and-excitation over a `[64, 256, 56, 56]` input: every entry `x[b, ch, p, q]` is multiplied by a weight
  `g[b, ch] = 1 / (1 + exp(-(w2 · relu(w1 · s[b, ·] + b1) + b2)[ch]))` of the per-channel means `s[b, ch]`.

  The kernel program merges the two trailing axes into one of 3136 positions, takes the means in one launch (a sum over
  the merged axis, divided by 3136), computes the weight on the host, and multiplies in a second launch, splitting the
  merged axis again at the end.  The reference sums over the two trailing axes directly, divides by the same 3136,
  computes the same weight and multiplies.  At the exact values the two agree entry by entry (`Bridge.result_eq`): the sum
  over the merged axis is the double sum regrouped, and a matrix product does not depend on the precision asked for.

  The three frames are the generated ones (the reference's is its generated run with the result forgotten); the ideal
  pass rewrote nothing, so there is nothing to preserve.
-/
import proofs.«144357_j18081812316801_2_alg».proof.Defs
import proofs.«144357_j18081812316801_2_alg».proof.Proof.Gen.Kernel
import proofs.«144357_j18081812316801_2_alg».proof.Proof.Gen.Kernel.Skeleton
import proofs.«144357_j18081812316801_2_alg».proof.Proof.Gen.Kernel.Launch
import proofs.«144357_j18081812316801_2_alg».proof.Proof.Gen.Kernel.Points
import proofs.«144357_j18081812316801_2_alg».proof.Proof.Gen.Kernel.Frame
import proofs.«144357_j18081812316801_2_alg».proof.Proof.Gen.KernelIdeal
import proofs.«144357_j18081812316801_2_alg».proof.Proof.Gen.KernelIdeal.Skeleton
import proofs.«144357_j18081812316801_2_alg».proof.Proof.Gen.KernelIdeal.Launch
import proofs.«144357_j18081812316801_2_alg».proof.Proof.Gen.KernelIdeal.Points
import proofs.«144357_j18081812316801_2_alg».proof.Proof.Gen.KernelIdeal.Frame
import proofs.«144357_j18081812316801_2_alg».proof.Proof.Gen.ReferenceIdeal
import proofs.«144357_j18081812316801_2_alg».proof.Proof.Gen.ReferenceIdeal.Run
import proofs.«144357_j18081812316801_2_alg».proof.Proof.Gen.ReferenceIdeal.Read
import proofs.«144357_j18081812316801_2_alg».proof.Proof.Gen.Pre_finite_inputs
import proofs.«144357_j18081812316801_2_alg».proof.Proof.KernelRun
import proofs.«144357_j18081812316801_2_alg».proof.Proof.KernelValue
import proofs.«144357_j18081812316801_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, both programs end with the result array at the kernel program's
    function of the arguments: the kernel program by its run read back through its segments, the reference by its
    generated run and the bridge. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.W7_result m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v20_eq _ _ _ _ _).trans (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
